-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16 : Shape := ⟨2, ![16384, 16]⟩
abbrev S16x1000 : Shape := ⟨2, ![16, 1000]⟩
abbrev S1000 : Shape := ⟨1, ![1000]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel
  bcast_S_S16x1000 : S_.BroadcastsInDim S16x1000 (![] : Fin 0 → Fin S16x1000.rank)
  reducesTo_S16x1000_S_d0_1 : S16x1000.ReducesTo [0, 1] S_
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S16384x16 .f32) (main_arg1 : FVec F S16x1000 .f32) (main_arg2 : FVec F S1000 .f32) : IVec S_ 1 :=
  let main_v0 : FVec F S16384x16 .f32 := Host.absf main_arg0
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  let main_v4 : FVec F S16x1000 .f32 := Host.absf main_arg1
  let main_cst_0 : FVec F S_ .f32 := constant S_ .f32 0x7F800000#32
  let main_v5 : FVec F S16x1000 .f32 := broadcastInDim S16x1000 ![] bcast_S_S16x1000 main_cst_0
  let main_v6 : IVec S16x1000 1 := cmpf .olt main_v4 main_v5
  let main_c_1 : IVec S_ 1 := constantI S_ 1 1#1
  let main_v7 : IVec S_ 1 := (fun x v => Host.reduce IntOp.andi x v reducesTo_S16x1000_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  main_v13
-- ==== Kernel.lean ====
abbrev S16384x16 : Shape := ⟨2, ![16384, 16]⟩
abbrev S16x1000 : Shape := ⟨2, ![16, 1000]⟩
abbrev S1000 : Shape := ⟨1, ![1000]⟩
abbrev S16x16384 : Shape := ⟨2, ![16, 16384]⟩
abbrev S1000x1 : Shape := ⟨2, ![1000, 1]⟩
abbrev S1000x16384 : Shape := ⟨2, ![1000, 16384]⟩
abbrev S16x2048 : Shape := ⟨2, ![16, 2048]⟩
abbrev S1000x2048 : Shape := ⟨2, ![1000, 2048]⟩
abbrev S2048 : Shape := ⟨1, ![2048]⟩
abbrev S1x2048 : Shape := ⟨2, ![1, 2048]⟩
abbrev S16384x1000 : Shape := ⟨2, ![16384, 1000]⟩

abbrev nBuf : Space → Nat
  | .hbm => 7
  | .vmem => 6
  | .smem => 0
  | _ => 0

abbrev bufTy : (tb : Table) → Fin (tcTables nBuf tb) → BufTy
  | .hbm, ⟨0, _⟩ => ⟨S16384x16, .f32⟩
  | .hbm, ⟨1, _⟩ => ⟨S16x1000, .f32⟩
  | .hbm, ⟨2, _⟩ => ⟨S1000, .f32⟩
  | .hbm, ⟨3, _⟩ => ⟨S16x16384, .f32⟩
  | .hbm, ⟨4, _⟩ => ⟨S1000x1, .f32⟩
  | .hbm, ⟨5, _⟩ => ⟨S1000x16384, .f32⟩
  | .hbm, ⟨6, _⟩ => ⟨S16384x1000, .f32⟩
  | .local _ .vmem, ⟨0, _⟩ => ⟨S16x2048, .f32⟩
  | .local _ .vmem, ⟨1, _⟩ => ⟨S16x2048, .f32⟩
  | .local _ .vmem, ⟨2, _⟩ => ⟨S16x1000, .f32⟩
  | .local _ .vmem, ⟨3, _⟩ => ⟨S1000x1, .f32⟩
  | .local _ .vmem, ⟨4, _⟩ => ⟨S1000x2048, .f32⟩
  | .local _ .vmem, ⟨5, _⟩ => ⟨S1000x2048, .f32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16384x16_S16x16384_1_0 : S16384x16.Transposes [1, 0] S16x16384
  shapeCasts_S1000_S1000x1 : S1000.ShapeCasts S1000x1
  inb_S16x1000_S16x1000_0_0 : ∀ a, (![0, 0] : Fin 2 → Nat) a + S16x1000.size a ≤ S16x1000.size a
  h_S16x1000 : 0 < S16x1000.numel
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x2048 : S1000x1.Broadcasts S1000x2048
  reduces_S1000x2048_S2048 : S1000x2048.Reduces [0] S2048
  shapeCasts_S2048_S1x2048 : S2048.ShapeCasts S1x2048
  broadcasts_S1x2048_S1000x2048 : S1x2048.Broadcasts S1000x2048
  inb_S1000x2048_S1000x2048_0_0 : ∀ a, (![0, 0] : Fin 2 → Nat) a + S1000x2048.size a ≤ S1000x2048.size a
  h_S1000x2048 : 0 < S1000x2048.numel
  transposes_S1000x16384_S16384x1000_1_0 : S1000x16384.Transposes [1, 0] S16384x1000
  dot_S16x1000_S16x2048_S1000x2048_0_0_1_1_n_n_wf : DotDims.WF S16x1000 S16x2048 S1000x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048.size a ≤ S16x16384.size a
  hwx0_0 : ∀ i : grid0.Coords, EltTy.bits .f32 = 32 ∨ (Rect.block (s := S16x16384) S16x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1000.size a ≤ S16x1000.size a
  hwx0_1 : ∀ i : grid0.Coords, EltTy.bits .f32 = 32 ∨ (Rect.block (s := S16x1000) S16x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S1000x1.size a
  hwx0_2 : ∀ i : grid0.Coords, EltTy.bits .f32 = 32 ∨ (Rect.block (s := S1000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x2048.size a ≤ S1000x16384.size a
  hwx0_3 : ∀ i : grid0.Coords, EltTy.bits .f32 = 32 ∨ (Rect.block (s := S1000x16384) S1000x2048.size (cc0_transform_3 i) (hinb0_3 i)).WholeWords (EltTy.packing .f32)

variable [Facts₀]

def dot_S16x1000_S16x2048_S1000x2048_0_0_1_1_n_n : DotDims S16x1000 S16x2048 S1000x2048 where
  lhsContracting := [0]
  rhsContracting := [0]
  lhsNonContracting := [1]
  rhsNonContracting := [1]
  lhsBatch := []
  rhsBatch := []
  wf := dot_S16x1000_S16x2048_S1000x2048_0_0_1_1_n_n_wf

abbrev win0_0 : Pipeline.Window sig grid0 :=
  Pipeline.Window.ofSpec (Memref.whole main_v0) S16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x16 : Shape := ⟨2, ![16384, 16]⟩
abbrev S16x1000 : Shape := ⟨2, ![16, 1000]⟩
abbrev S1000 : Shape := ⟨1, ![1000]⟩
abbrev S16384x1000 : Shape := ⟨2, ![16384, 1000]⟩
abbrev S1x1000 : Shape := ⟨2, ![1, 1000]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S16x1000, .f32⟩
  | .hbm, ⟨2, _⟩ => ⟨S1000, .f32⟩
  | .hbm, ⟨3, _⟩ => ⟨S16384x1000, .f32⟩
  | .hbm, ⟨4, _⟩ => ⟨S1x1000, .f32⟩
  | .hbm, ⟨5, _⟩ => ⟨S16384x1000, .f32⟩
  | .hbm, ⟨6, _⟩ => ⟨S16384x1000, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S16384x1000, .f32⟩
  | .hbm, ⟨14, _⟩ => ⟨S16384x1000, .f32⟩
  | .hbm, ⟨15, _⟩ => ⟨S16384x1000, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x1000, .f32⟩
  | .hbm, ⟨20, _⟩ => ⟨S16384x1000, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  dot_S16384x16_S16x1000_S16384x1000_1_0_0_1_n_n_wf : DotDims.WF S16384x16 S16x1000 S16384x1000 [1] [0] [0] [1] [] []

variable [Facts₀]

def dot_S16384x16_S16x1000_S16384x1000_1_0_0_1_n_n : DotDims S16384x16 S16x1000 S16384x1000 where
  lhsContracting := [1]
  rhsContracting := [0]
  lhsNonContracting := [0]
  rhsNonContracting := [1]
  lhsBatch := []
  rhsBatch := []
  wf := dot_S16384x16_S16x1000_S16384x1000_1_0_0_1_n_n_wf

class Facts : Prop extends Facts₀ where

variable [Facts]
-- ==== Proof.LibSoftmax.lean ====
/-
  Softmax of a finite family of extended reals, in two arrangements.

  For a family `l : ι → EReal` let `top l` be the maximum of the family taken from −∞, `weight l a = exp (l a − top l)`
  and `total l = ∑ a, weight l a`.  One program divides each weight by the total (`quot`); the other multiplies each
  weight by the reciprocal `1 / total` (`recip`).  On the extended reals the two differ only when the total is `0`
  (there `0 / 0` and `0 · (1 / 0)` are given different values), and the total is not `0` once every member of the family is a real
  number: the maximum is then attained at some member `a₀`, so `weight l a₀ = exp 0 = 1`, every weight is
  nonnegative, and the total is at least `1`.  Hence `recip l = quot l` for a family of reals (`recip_eq_quot`).
-/
import Idealize.ShloMosaic.PureOps.Ideal
import Idealize.ShloMosaic.PureOps.Ideal.Laws
import Idealize.ShloMosaic.PureOps.IdealRules

noncomputable section

open scoped BigOperators

namespace Cert.Softmax

open Idealize.ShloMosaic

/-- The extended real the f32 word of −∞ denotes. -/
abbrev negInf : EReal := Ideal.ofBits .f32 0xFF800000#32
/-- The extended real the f32 word of 1.0 denotes. -/
abbrev one : EReal := Ideal.ofBits .f32 0x3F800000#32

theorem negInf_eq : negInf = ⊥ := by simp [negInf, Ideal.ofBits, Ideal.ieee]
theorem one_eq : one = 1 := IdealRules.sign_bit.ideal_onePat .f32

variable {ι : Type} [Fintype ι]

/-- The maximum of the family, taken from −∞. -/
def top (l : ι → EReal) : EReal := (Finset.univ : Finset ι).fold max negInf l
/-- The exponential of a member's distance below the maximum. -/
def weight (l : ι → EReal) (a : ι) : EReal := Ideal.exp (l a - top l)
/-- The sum of the weights. -/
def total (l : ι → EReal) : EReal := ∑ a, weight l a
/-- A weight divided by the total. -/
def quot (l : ι → EReal) (a : ι) : EReal := Ideal.div (weight l a) (total l)
/-- A weight times the reciprocal of the total. -/
def recip (l : ι → EReal) (a : ι) : EReal := weight l a * Ideal.div one (total l)

/-- The exponential is nonnegative on all of the extended reals (`exp (−∞) = 0`, `exp (+∞) = +∞`). -/
theorem exp_nonneg (y : EReal) : 0 ≤ Ideal.exp y := by
  induction y using EReal.rec with
  | bot => exact le_of_eq Ideal.exp_bot.symm
  | top => rw [Ideal.exp_top]; exact le_top
  | coe r => rw [Ideal.exp_coe]; exact EReal.coe_nonneg.mpr (Real.exp_pos r).le

/-- The maximum from −∞ of a nonempty family is one of its members. -/
theorem top_attained [Nonempty ι] (l : ι → EReal) : ∃ a, top l = l a := by
  obtain ⟨a, -, ha⟩ := Finset.exists_mem_eq_sup (Finset.univ : Finset ι) Finset.univ_nonempty l
  refine ⟨a, ?_⟩
  rw [← ha]
  unfold top
  rw [negInf_eq]
  rfl

/-- A maximum taken from −∞ is not changed by one more comparison with −∞. -/
theorem max_negInf_top (l : ι → EReal) : max negInf (top l) = top l :=
  max_eq_right (by rw [negInf_eq]; exact bot_le)

/-- For a nonempty family of reals the sum of the weights is not zero: it is at least the weight `1` of a member
    at which the maximum is attained. -/
theorem total_ne_zero [Nonempty ι] (l : ι → EReal) (hl : ∀ a, ∃ r : ℝ, l a = (r : EReal)) : total l ≠ 0 := by
  obtain ⟨a₀, h₀⟩ := top_attained l
  obtain ⟨r, hr⟩ := hl a₀
  have hw : weight l a₀ = 1 := by
    unfold weight
    rw [h₀, hr, ← EReal.coe_sub, sub_self, Ideal.exp_coe, Real.exp_zero, EReal.coe_one]
  have hle : weight l a₀ ≤ total l :=
    Finset.single_le_sum (f := weight l) (fun a _ => exp_nonneg _) (Finset.mem_univ a₀)
  rw [hw] at hle
  exact (lt_of_lt_of_le zero_lt_one hle).ne'

/-- THE LAW: for a nonempty family of reals, a weight times the reciprocal of the total is the weight divided by the
    total. -/
theorem recip_eq_quot [Nonempty ι] (l : ι → EReal) (hl : ∀ a, ∃ r : ℝ, l a = (r : EReal)) : recip l = quot l := by
  funext a
  have hs := total_ne_zero l hl
  unfold recip quot Ideal.div
  rw [if_neg hs, if_neg hs, one_eq, one_mul]

end Cert.Softmax

end
-- ==== Proof.Logits.lean ====
/-
  The policy head as one function of its three argument arrays, on the extended reals.

  For a state row `j` and an action `a` the logit is `∑ d, state[j, d] · W[d, a] + b[a]`; the result at `(j, a)` is the
  softmax weight of action `a` within row `j`'s 1000 logits, in the quotient arrangement (`probs`) or in the
  product-with-reciprocal arrangement (`probsRecip`).  When every entry of the three arrays is a real number every logit is a real
  number — a finite sum of products of reals plus a real — and the two arrangements agree (`probsRecip_eq_probs`, by
  `Softmax.recip_eq_quot`).
-/
import proofs.«137008_g19791209300550_cont_8to1_1714_20_alg».proof.Proof.LibSoftmax
import Idealize.ShloMosaic.Lib.ValueIdx

noncomputable section

open scoped BigOperators

namespace Cert.Policy

open Idealize.ShloMosaic Idealize.ShloMosaic.ValueIdx

/-- The shapes of the state, weight and bias arrays and of the result. -/
abbrev SX : Shape := ⟨2, ![16384, 16]⟩
abbrev SW : Shape := ⟨2, ![16, 1000]⟩
abbrev SB : Shape := ⟨1, ![1000]⟩
abbrev SO : Shape := ⟨2, ![16384, 1000]⟩

/-- The logit of action `a` for state row `j`. -/
def logit (x : SX.Idx → EReal) (w : SW.Idx → EReal) (b : SB.Idx → EReal) (j : Fin 16384) (a : Fin 1000) : EReal :=
  (∑ d : Fin 16, x (ix2 j d) * w (ix2 d a)) + b (ix1 a)

/-- Row softmax of the logits, each weight divided by its row's total. -/
def probs (x : SX.Idx → EReal) (w : SW.Idx → EReal) (b : SB.Idx → EReal) : SO.Idx → EReal :=
  fun i => Softmax.quot (logit x w b (i 0)) (i 1)

/-- Row softmax of the logits, each weight multiplied by the reciprocal of its row's total. -/
def probsRecip (x : SX.Idx → EReal) (w : SW.Idx → EReal) (b : SB.Idx → EReal) : SO.Idx → EReal :=
  fun i => Softmax.recip (logit x w b (i 0)) (i 1)

/-- A finite sum of reals, summed on the extended reals, is the real sum. -/
theorem sum_coe {κ : Type} (s : Finset κ) (f : κ → ℝ) : ∑ k ∈ s, (f k : EReal) = ((∑ k ∈ s, f k : ℝ) : EReal) := by
  classical
  induction s using Finset.induction_on with
  | empty => simp
  | insert k s hk ih => rw [Finset.sum_insert hk, Finset.sum_insert hk, ih, EReal.coe_add]

/-- Over arrays of reals every logit is a real. -/
theorem logit_real {x : SX.Idx → EReal} {w : SW.Idx → EReal} {b : SB.Idx → EReal}
    (hx : ∀ i, ∃ r : ℝ, x i = (r : EReal)) (hw : ∀ i, ∃ r : ℝ, w i = (r : EReal)) (hb : ∀ i, ∃ r : ℝ, b i = (r : EReal))
    (j : Fin 16384) (a : Fin 1000) : ∃ r : ℝ, logit x w b j a = (r : EReal) := by
  choose x' hx' using hx
  choose w' hw' using hw
  choose b' hb' using hb
  refine ⟨(∑ d : Fin 16, x' (ix2 j d) * w' (ix2 d a)) + b' (ix1 a), ?_⟩
  unfold logit
  simp only [hx', hw', hb', ← EReal.coe_mul]
  rw [sum_coe, ← EReal.coe_add]

/-- Over arrays of reals the two arrangements of the row softmax agree. -/
theorem probsRecip_eq_probs {x : SX.Idx → EReal} {w : SW.Idx → EReal} {b : SB.Idx → EReal}
    (hx : ∀ i, ∃ r : ℝ, x i = (r : EReal)) (hw : ∀ i, ∃ r : ℝ, w i = (r : EReal)) (hb : ∀ i, ∃ r : ℝ, b i = (r : EReal)) :
    probsRecip x w b = probs x w b := by
  funext i
  exact congrFun (Softmax.recip_eq_quot (logit x w b (i 0)) (logit_real hx hw hb (i 0))) (i 1)

end Cert.Policy

end
-- ==== Proof.RefSoftmax.lean ====
/-
  The reference program computes `Policy.probs`.

  Read one operation at a time at an index `(j, a)`: the `dot_general` plus the broadcast bias is the logit of `(j, a)`;
  the reduce with a maximum body from −∞ over the second axis is the row's maximum from −∞, and the further maximum with a
  broadcast −∞ changes nothing; the exponential of the difference is the weight; the reduce with an add body from `0` is the
  row's total; the final divide is the quotient arrangement of the row softmax.
-/
import proofs.«137008_g19791209300550_cont_8to1_1714_20_alg».proof.Proof.Logits
import proofs.«137008_g19791209300550_cont_8to1_1714_20_alg».proof.Proof.Gen.ReferenceIdeal.Read
import Idealize.ShloMosaic.PureOps.Reduce

noncomputable section

open scoped BigOperators

namespace Cert.Policy.Ref

open Cert.ReferenceIdeal Cert.ReferenceIdeal.Gen Cert.ReferenceIdeal.Read
open Idealize.ShloMosaic Idealize.ShloMosaic.ValueIdx

variable (x0 : (⟨S16384x16, .f32⟩ : BufTy).Contents (Elt Ideal)) (x1 : (⟨S16x1000, .f32⟩ : BufTy).Contents (Elt Ideal))
  (x2 : (⟨S1000, .f32⟩ : BufTy).Contents (Elt Ideal))

/-! ## The index maps of the read-back operations, at `(j, a)` -/

theorem lidx_eq (j : Fin 16384) (a : Fin 1000) (k : Fin 16) : lidx_main_v0 (ix2 j a) k = ix2 j k :=
  funext fun c => Fin.ext (by match c with | ⟨0, _⟩ => rfl | ⟨1, _⟩ => rfl)
theorem ridx_eq (j : Fin 16384) (a : Fin 1000) (k : Fin 16) : ridx_main_v0 (ix2 j a) k = ix2 k a :=
  funext fun c => Fin.ext (by match c with | ⟨0, _⟩ => rfl | ⟨1, _⟩ => rfl)
theorem bias_idx_eq (j : Fin 16384) (a : Fin 1000) : idx_main_v1 (idx_main_v2 (ix2 j a)) = ix1 a :=
  funext fun c => Fin.ext (by match c with | ⟨0, _⟩ => rfl)
theorem row_idx_eq (j : Fin 16384) (a : Fin 1000) : idx_main_v7 (idx_main_v8 (ix2 j a)) = ix1 j :=
  funext fun c => Fin.ext (by match c with | ⟨0, _⟩ => rfl)
theorem row_idx_eq' (j : Fin 16384) (a : Fin 1000) : idx_main_v12 (idx_main_v13 (ix2 j a)) = ix1 j :=
  funext fun c => Fin.ext (by match c with | ⟨0, _⟩ => rfl)
theorem sum_idx_eq (j : Fin 16384) (k : Fin 1000) : idx_main_v11 (ix1 j) k = ix2 j k :=
  funext fun c => Fin.ext (by match c with | ⟨0, _⟩ => rfl | ⟨1, _⟩ => rfl)

/-- The shape fact that names the index put back into a row. -/
theorem hred : S16384x1000.Reduces [1] S16384 := by decide
/-- Row `j` with the action coordinate `k` put back is `(j, k)`. -/
theorem lift_eq (j : Fin 16384) (k : Fin 1000) : hred.lift (ix1 j) k = ix2 j k := by
  funext c; apply Fin.ext
  fin_cases c <;> rfl

/-! ## The stages -/

/-- The matrix product plus the broadcast bias is the logit. -/
theorem logits_eq (j : Fin 16384) (a : Fin 1000) :
    val_main_v3 (F := Ideal) x0 x1 x2 (ix2 j a) = logit x0 x1 x2 j a := by
  rw [val_main_v3_apply, val_main_v0_apply, val_main_v2_apply, val_main_v1_apply, bias_idx_eq]
  simp only [lidx_eq, ridx_eq]
  rfl

/-- The reduce with a maximum body is the row's maximum from −∞. -/
theorem rowMax_eq (j : Fin 16384) :
    val_main_v4 (F := Ideal) x0 x1 x2 (ix1 j) = Softmax.top (logit x0 x1 x2 j) := by
  unfold val_main_v4
  rw [Host.reduce_eq_fold_single FloatOps.maximumf _ _ reducesTo_S16384x1000_S16384_d1 hred h_S_]
  unfold Softmax.top
  refine congrArg (fun f => Finset.fold max Softmax.negInf f (Finset.univ : Finset (Fin 1000))) ?_
  funext k
  exact (congrArg (val_main_v3 (F := Ideal) x0 x1 x2) (lift_eq j k)).trans (logits_eq x0 x1 x2 j k)

/-- The exponential of a logit less its row's maximum is the weight. -/
theorem weight_eq (j : Fin 16384) (a : Fin 1000) :
    val_main_v10 (F := Ideal) x0 x1 x2 (ix2 j a) = Softmax.weight (logit x0 x1 x2 j) a := by
  rw [val_main_v10_apply, val_main_v9_apply, val_main_v8_apply, val_main_v7_apply, row_idx_eq, val_main_v6_apply,
    val_main_v5_apply, val_main_cst_0_apply, rowMax_eq, logits_eq]
  show Ideal.exp (logit x0 x1 x2 j a - max Softmax.negInf (Softmax.top (logit x0 x1 x2 j))) = _
  rw [Softmax.max_negInf_top]
  rfl

/-- The reduce with an add body from `0` is the row's total. -/
theorem total_eq (j : Fin 16384) :
    val_main_v11 (F := Ideal) x0 x1 x2 (ix1 j) = Softmax.total (logit x0 x1 x2 j) := by
  rw [val_main_v11_apply, val_main_cst_1_apply]
  show Ideal.ofBits .f32 0x00000000#32 + _ = _
  rw [Ideal.ofBits_zero_f32, zero_add]
  unfold Softmax.total
  refine Finset.sum_congr rfl fun k _ => ?_
  rw [sum_idx_eq, weight_eq]

/-- THE REFERENCE: its result array is the row softmax of the logits in the quotient arrangement. -/
theorem result_eq : val_main_v14 (F := Ideal) x0 x1 x2 = probs x0 x1 x2 := by
  funext i
  obtain ⟨j, a, rfl⟩ : ∃ (j : Fin 16384) (a : Fin 1000), i = ix2 j a := ⟨i 0, i 1, eq_ix2 i⟩
  rw [val_main_v14_apply, val_main_v13_apply, val_main_v12_apply, row_idx_eq', weight_eq, total_eq]
  rfl

end Cert.Policy.Ref

end
-- ==== Proof.BodySoftmax.lean ====
/-
  What the kernel body stores, at an index of its block.

  The body holds a [16, 1000] block `v0` of the weights, a [16, 2048] block `v1` of the transposed states and the bias as a
  [1000, 1] column `v4`.  Its [1000, 2048] block of logits is the matrix product contracting the 16-axis of both, plus the
  column spread along the rows (`blockLogits`); the stored value takes, in each of the 2048 columns, the maximum from −∞ over
  the 1000 rows, the exponentials of the differences, their sum, and multiplies each exponential by the reciprocal of the sum
  (`normalize`).  Read at row `a` and column `q` that is the product-with-reciprocal arrangement of the softmax of column
  `q`'s 1000 logits, at `a` (`payload_apply`).
-/
import proofs.«137008_g19791209300550_cont_8to1_1714_20_alg».proof.Proof.LibSoftmax
import proofs.«137008_g19791209300550_cont_8to1_1714_20_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Policy.Body

open Cert.KernelIdeal Cert.KernelIdeal.Gen
open Idealize.ShloMosaic Idealize.ShloMosaic.ValueIdx

/-! ## The column reductions -/

/-- Column `q` with the row coordinate `k` put back is `(k, q)`. -/
theorem lift_eq (q : Fin 2048) (k : Fin 1000) : reduces_S1000x2048_S2048.lift (ix1 q) k = ix2 k q := by
  funext c; apply Fin.ext
  fin_cases c <;> rfl

/-- A [2048] row given a leading unit axis and spread over the 1000 rows reads, at `(a, q)`, the row at `q`. -/
theorem spread_apply (r : FVec Ideal S2048 .f32) (a : Fin 1000) (q : Fin 2048) :
    broadcastTo S1000x2048 (shapeCast S1x2048 r shapeCasts_S2048_S1x2048) broadcasts_S1x2048_S1000x2048 (ix2 a q) = r (ix1 q) :=
  (broadcastTo_1b_ab_apply (shapeCast S1x2048 r shapeCasts_S2048_S1x2048) broadcasts_S1x2048_S1000x2048 a q).trans
    (shapeCast_a_1a_apply r shapeCasts_S2048_S1x2048 (0 : Fin 1) q)

/-- The maximum reduction over the rows, at column `q`, is the maximum from −∞ of the column. -/
theorem colMax_apply (L : FVec Ideal S1000x2048 .f32) (q : Fin 2048) :
    multiReduction .maximumf [0] S2048 L 0xFF800000#32 reduces_S1000x2048_S2048 (.inl rfl) rfl (ix1 q)
      = Softmax.top (fun a' : Fin 1000 => L (ix2 a' q)) := by
  refine (Ideal.multiReduction_maximumf_single L 0xFF800000#32 reduces_S1000x2048_S2048 (.inl rfl) rfl (ix1 q)).trans ?_
  unfold Softmax.top
  refine congrArg (fun f => Finset.fold max Softmax.negInf f (Finset.univ : Finset (Fin 1000))) ?_
  funext k
  exact congrArg L (lift_eq q k)

/-- The add reduction over the rows, at column `q`, is the sum of the column. -/
theorem colSum_apply (E : FVec Ideal S1000x2048 .f32) (q : Fin 2048) :
    multiReduction .add [0] S2048 E 0x00000000#32 reduces_S1000x2048_S2048 (.inl rfl) rfl (ix1 q)
      = ∑ a' : Fin 1000, E (ix2 a' q) := by
  refine (Ideal.multiReduction_add_single E 0x00000000#32 reduces_S1000x2048_S2048 (.inl rfl) rfl (ix1 q)).trans ?_
  exact Finset.sum_congr rfl fun k _ => congrArg E (lift_eq q k)

/-! ## From logits to the stored block -/

/-- Each column's maximum, spread back over the rows. -/
def colTop (L : FVec Ideal S1000x2048 .f32) : FVec Ideal S1000x2048 .f32 :=
  broadcastTo S1000x2048 (shapeCast S1x2048 (multiReduction .maximumf [0] S2048 L 0xFF800000#32 reduces_S1000x2048_S2048 (.inl rfl) rfl)
    shapeCasts_S2048_S1x2048) broadcasts_S1x2048_S1000x2048
/-- The exponentials of the logits less their column's maximum. -/
def weights (L : FVec Ideal S1000x2048 .f32) : FVec Ideal S1000x2048 .f32 := exp (subf L (colTop L))
/-- The reciprocal of each column's sum of exponentials, spread back over the rows. -/
def colRecip (L : FVec Ideal S1000x2048 .f32) : FVec Ideal S1000x2048 .f32 :=
  broadcastTo S1000x2048 (divf (broadcast S1x2048 (Scalar.ofBits .f32 0x3F800000#32 : Ideal .f32))
    (shapeCast S1x2048 (multiReduction .add [0] S2048 (weights L) 0x00000000#32 reduces_S1000x2048_S2048 (.inl rfl) rfl)
      shapeCasts_S2048_S1x2048)) broadcasts_S1x2048_S1000x2048
/-- The stored block as a function of the block of logits. -/
def normalize (L : FVec Ideal S1000x2048 .f32) : FVec Ideal S1000x2048 .f32 := mulf (weights L) (colRecip L)

theorem weights_apply (L : FVec Ideal S1000x2048 .f32) (a : Fin 1000) (q : Fin 2048) :
    weights L (ix2 a q) = Softmax.weight (fun a' : Fin 1000 => L (ix2 a' q)) a := by
  show Ideal.exp (L (ix2 a q) - colTop L (ix2 a q)) = _
  unfold colTop
  rw [spread_apply, colMax_apply]
  rfl

theorem colRecip_apply (L : FVec Ideal S1000x2048 .f32) (a : Fin 1000) (q : Fin 2048) :
    colRecip L (ix2 a q) = Ideal.div Softmax.one (Softmax.total (fun a' : Fin 1000 => L (ix2 a' q))) := by
  unfold colRecip
  refine (broadcastTo_1b_ab_apply _ broadcasts_S1x2048_S1000x2048 a q).trans ?_
  show Ideal.div Softmax.one (shapeCast S1x2048 (multiReduction .add [0] S2048 (weights L) 0x00000000#32 reduces_S1000x2048_S2048 (.inl rfl) rfl)
      shapeCasts_S2048_S1x2048 (ix2 (0 : Fin 1) q)) = _
  rw [shapeCast_a_1a_apply, colSum_apply]
  unfold Softmax.total
  exact congrArg (Ideal.div Softmax.one) (Finset.sum_congr rfl fun k _ => weights_apply L k q)

/-- The stored block at `(a, q)` is the softmax of column `q`'s logits at `a`, the weight times the reciprocal of the total. -/
theorem normalize_apply (L : FVec Ideal S1000x2048 .f32) (a : Fin 1000) (q : Fin 2048) :
    normalize L (ix2 a q) = Softmax.recip (fun a' : Fin 1000 => L (ix2 a' q)) a := by
  show weights L (ix2 a q) * colRecip L (ix2 a q) = _
  rw [weights_apply, colRecip_apply]
  rfl

/-! ## The block of logits -/

/-- The block of logits: the product contracting the 16-axis of both operands, plus the bias column spread along the rows. -/
def blockLogits (v0 : FVec Ideal S16x1000 .f32) (v1 : FVec Ideal S16x2048 .f32) (v4 : FVec Ideal S1000x1 .f32) : FVec Ideal S1000x2048 .f32 :=
  addf (matmul dot_S16x1000_S16x2048_S1000x2048_0_0_1_1_n_n none v0 (shapeCast S16x2048 v1 shapeCasts_S16x2048_S16x2048 : FVec Ideal S16x2048 .f32)
      (constant S1000x2048 .f32 0x00000000#32))
    (broadcastTo S1000x2048 (shapeCast S1000x1 v4 shapeCasts_S1000x1_S1000x1 : FVec Ideal S1000x1 .f32) broadcasts_S1000x1_S1000x2048)

/-- The body's stored value is `normalize` of the block of logits. -/
theorem payload_eq (v0 : FVec Ideal S16x1000 .f32) (v1 : FVec Ideal S16x2048 .f32) (v4 : FVec Ideal S1000x1 .f32) :
    k0_pay1 (F := Ideal) v0 v1 v4 = normalize (blockLogits v0 v1 v4) := rfl

abbrev D := dot_S16x1000_S16x2048_S1000x2048_0_0_1_1_n_n

theorem lhs_0 (i : S1000x2048.Idx) (k : D.contr.Idx) : (D.lhsIdx i k 0).val = (k ⟨0, by decide⟩).val :=
  D.lhsIdx_val_of_single rfl i k
theorem lhs_1 (i : S1000x2048.Idx) (k : D.contr.Idx) : (D.lhsIdx i k 1).val = (i 0).val := by
  unfold DotDims.lhsIdx
  rw [dif_neg (show ¬(1 : Fin S16x1000.rank) ∈ D.lhsBatch by decide), dif_pos (show (1 : Fin S16x1000.rank) ∈ D.lhsNonContracting by decide)]
  rfl
theorem rhs_0 (i : S1000x2048.Idx) (k : D.contr.Idx) : (D.rhsIdx i k 0).val = (k ⟨0, by decide⟩).val :=
  D.rhsIdx_val_of_single rfl i k
theorem rhs_1 (i : S1000x2048.Idx) (k : D.contr.Idx) : (D.rhsIdx i k 1).val = (i 1).val := by
  unfold DotDims.rhsIdx
  rw [dif_neg (show ¬(1 : Fin S16x2048.rank) ∈ D.rhsBatch by decide), dif_pos (show (1 : Fin S16x2048.rank) ∈ D.rhsNonContracting by decide)]
  rfl

/-- The matrix product into a zero accumulator, at `(a, q)`: the sum over the contracted axis. -/
theorem product_apply (v0 : FVec Ideal S16x1000 .f32) (v1 : FVec Ideal S16x2048 .f32) (a : Fin 1000) (q : Fin 2048) :
    matmul D none v0 v1 (constant S1000x2048 .f32 0x00000000#32) (ix2 a q) = ∑ d : Fin 16, v0 (ix2 d a) * v1 (ix2 d q) := by
  refine (Ideal.matmul_constant_zero_apply D none v0 v1 (ix2 a q)).trans ?_
  rw [← Equiv.sum_comp (contrEquiv1 D 16 rfl rfl).symm]
  refine Finset.sum_congr rfl fun k _ => ?_
  have hk := contrEquiv1_symm_val D 16 rfl rfl k
  have el : D.lhsIdx (ix2 a q) ((contrEquiv1 D 16 rfl rfl).symm k) = ix2 k a := funext fun c => Fin.ext (by
    match c with
    | ⟨0, _⟩ => exact (lhs_0 _ _).trans hk
    | ⟨1, _⟩ => exact lhs_1 _ _)
  have er : D.rhsIdx (ix2 a q) ((contrEquiv1 D 16 rfl rfl).symm k) = ix2 k q := funext fun c => Fin.ext (by
    match c with
    | ⟨0, _⟩ => exact (rhs_0 _ _).trans hk
    | ⟨1, _⟩ => exact rhs_1 _ _)
  rw [el, er]

/-- The bias column spread along the rows reads, at `(a, q)`, the column at `a`. -/
theorem column_apply (v4 : FVec Ideal S1000x1 .f32) (a : Fin 1000) (q : Fin 2048) :
    broadcastTo S1000x2048 v4 broadcasts_S1000x1_S1000x2048 (ix2 a q) = v4 (ix2 a (0 : Fin 1)) :=
  broadcastTo_apply v4 broadcasts_S1000x1_S1000x2048 (ix2 a q) (ix2 a (0 : Fin 1)) fun ax =>
    match ax with
    | ⟨0, _⟩ => by show a.val = if (1000 : Nat) = 1 then 0 else a.val; rw [if_neg (by decide)]
    | ⟨1, _⟩ => by show 0 = if (1 : Nat) = 1 then 0 else q.val; rw [if_pos rfl]

/-- The logit at row `a` and column `q` of the block. -/
theorem blockLogits_apply (v0 : FVec Ideal S16x1000 .f32) (v1 : FVec Ideal S16x2048 .f32) (v4 : FVec Ideal S1000x1 .f32)
    (a : Fin 1000) (q : Fin 2048) :
    blockLogits v0 v1 v4 (ix2 a q) = (∑ d : Fin 16, v0 (ix2 d a) * v1 (ix2 d q)) + v4 (ix2 a (0 : Fin 1)) := by
  unfold blockLogits
  rw [shapeCast_self, shapeCast_self]
  show matmul D none v0 v1 (constant S1000x2048 .f32 0x00000000#32) (ix2 a q)
    + broadcastTo S1000x2048 v4 broadcasts_S1000x1_S1000x2048 (ix2 a q) = _
  rw [product_apply, column_apply]

/-- THE BODY: at row `a` and column `q` of its block the stored value is the softmax of the column's logits at `a`, the
    weight times the reciprocal of the total. -/
theorem payload_apply (v0 : FVec Ideal S16x1000 .f32) (v1 : FVec Ideal S16x2048 .f32) (v4 : FVec Ideal S1000x1 .f32)
    (a : Fin 1000) (q : Fin 2048) :
    k0_pay1 (F := Ideal) v0 v1 v4 (ix2 a q)
      = Softmax.recip (fun a' : Fin 1000 => (∑ d : Fin 16, v0 (ix2 d a') * v1 (ix2 d q)) + v4 (ix2 a' (0 : Fin 1))) a := by
  rw [payload_eq, normalize_apply]
  exact congrArg (fun l => Softmax.recip l a) (funext fun a' => blockLogits_apply v0 v1 v4 a' q)

end Cert.Policy.Body

end
-- ==== Proof.KernelArray.lean ====
/-
  The kernel program's result array.

  The kernel works on the transposed problem.  Before the region the host transposes the states to [16, 16384] and views the bias
  as a [1000, 1] column; grid point `t` reads columns `2048 t … 2048 t + 2047` of the transposed states, all of the weights and
  the whole bias column, and writes the same columns of a [1000, 16384] array; after the region the host transposes that array.
  So block `t`'s entry at row `a` and column `q` is the softmax weight of action `a` for state row `2048 t + q`; the eight
  blocks tile the array; and the transposed array is `Policy.probsRecip` of the three argument arrays.
-/
import proofs.«137008_g19791209300550_cont_8to1_1714_20_alg».proof.Proof.Logits
import proofs.«137008_g19791209300550_cont_8to1_1714_20_alg».proof.Proof.BodySoftmax
import proofs.«137008_g19791209300550_cont_8to1_1714_20_alg».proof.Proof.Gen.KernelIdeal.Frame
import Idealize.ShloMosaic.Lib.Pipeline.Value
import Idealize.ShloMosaic.Lib.ValueLayout
import Idealize.ShloMosaic.Lib.StableHlo.Run

set_option maxRecDepth 16384

noncomputable section

open scoped BigOperators

namespace Cert.Policy.Kernel

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The arrays as the region finds them -/

theorem V_states (c : Dev nD) :
    (V m c main_v0 : S16x16384.Idx → EReal)
      = transpose S16x16384 [1, 0] (m ((c : Thread nD τ).loc main_arg0)) transposes_S16384x16_S16x16384_1_0 := by
  show StableHlo.after hostOps0 (fun b => m (c, b)) (Proc.devRef .tc main_v0) = _
  after_results

theorem V_bias (c : Dev nD) :
    (V m c main_v1 : S1000x1.Idx → EReal)
      = shapeCast S1000x1 (m ((c : Thread nD τ).loc main_arg2)) shapeCasts_S1000_S1000x1 := by
  show StableHlo.after hostOps0 (fun b => m (c, b)) (Proc.devRef .tc main_v1) = _
  after_results
  rfl

/-! ## The blocks -/

theorem hz : (![0, 0] : Fin 2 → Nat) = fun _ => 0 := funext fun a => by fin_cases a <;> rfl

/-- The printed index maps over the grid: the state and result windows move along the columns with the point, the
    weight and bias windows stay. -/
theorem index_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The state row that column `q` of point `t`'s blocks belongs to. -/
def rowOf (t : Fin cfg0.N) (q : Fin 2048) : Fin 16384 := ⟨t.val * 2048 + q.val, by
  have ht : t.val < 8 := lt_of_lt_of_eq t.isLt N_0
  have := q.isLt; omega⟩

/-- Point `t`'s block of the transposed states at `(d, q)` is the state array at `(2048 t + q, d)`. -/
theorem states_block (c : Dev nD) (t : Fin cfg0.N) (d : Fin 16) (q : Fin 2048) :
    iblk m c 0 t (ix2 d q) = m ((c : Thread nD τ).loc main_arg0) (ix2 (rowOf t q) d) := by
  obtain ⟨e0, e1, -⟩ := index_facts t
  show V m c main_v0 (((cfg0.win 0).blk t).view.emb (ix2 d q)) = _
  have e : ((cfg0.win 0).blk t).view.emb (ix2 d q) = ix2 d (rowOf t q) := by
    funext ax; apply Fin.ext
    match ax with
    | ⟨0, _⟩ => show win0_0.index t (0 : Fin 2) * 16 + 1 * d.val = d.val; omega
    | ⟨1, _⟩ => show win0_0.index t (1 : Fin 2) * 2048 + 1 * q.val = t.val * 2048 + q.val; omega
  rw [e, V_states]
  exact transpose_ix2_apply _ _ d (rowOf t q)

theorem weights_block (c : Dev nD) (t : Fin cfg0.N) (d : Fin 16) (a : Fin 1000) :
    iblk m c 1 t (ix2 d a) = m ((c : Thread nD τ).loc main_arg1) (ix2 d a) := by
  obtain ⟨-, -, e0, e1, -⟩ := index_facts t
  show V m c main_arg1 (((cfg0.win 1).blk t).view.emb (ix2 d a)) = _
  have e : ((cfg0.win 1).blk t).view.emb (ix2 d a) = ix2 d a := by
    funext ax; apply Fin.ext
    match ax with
    | ⟨0, _⟩ => show win0_1.index t (0 : Fin 2) * 16 + 1 * d.val = d.val; omega
    | ⟨1, _⟩ => show win0_1.index t (1 : Fin 2) * 1000 + 1 * a.val = a.val; omega
  rw [e, V_main_arg1]

theorem bias_block (c : Dev nD) (t : Fin cfg0.N) (a : Fin 1000) :
    iblk m c 2 t (ix2 a (0 : Fin 1)) = m ((c : Thread nD τ).loc main_arg2) (ix1 a) := by
  obtain ⟨-, -, -, -, e0, e1, -⟩ := index_facts t
  show V m c main_v1 (((cfg0.win 2).blk t).view.emb (ix2 a (0 : Fin 1))) = _
  have e : ((cfg0.win 2).blk t).view.emb (ix2 a (0 : Fin 1)) = ix2 a (0 : Fin 1) := by
    funext ax; apply Fin.ext
    match ax with
    | ⟨0, _⟩ => show win0_2.index t (0 : Fin 2) * 1000 + 1 * a.val = a.val; omega
    | ⟨1, _⟩ => show win0_2.index t (1 : Fin 2) * 1 + 1 * 0 = 0; omega
  rw [e, V_bias]
  refine shapeCast_apply _ shapeCasts_S1000_S1000x1 (ix2 a (0 : Fin 1)) (ix1 a) ?_
  rw [Shape.rowMajor_val_two, Shape.rowMajor_val_one]
  show a.val = a.val * 1 + 0
  omega

/-! ## One entry of one block -/

/-- Over blocks that read the argument arrays `X`, `Wt`, `Bs` as the windows do — column `q` of the state block is
    state row `j` —, the body's stored value at `(a, q)` is the softmax weight of action `a` for row `j`. -/
theorem entry (X : Policy.SX.Idx → EReal) (Wt : Policy.SW.Idx → EReal) (Bs : Policy.SB.Idx → EReal)
    (x0 : FVec Ideal S16x2048 .f32) (x1 : FVec Ideal S16x1000 .f32) (x2 : FVec Ideal S1000x1 .f32) (j : Fin 16384) (q : Fin 2048)
    (h0 : ∀ d : Fin 16, x0 (ix2 d q) = X (ix2 j d)) (h1 : ∀ (d : Fin 16) (a : Fin 1000), x1 (ix2 d a) = Wt (ix2 d a))
    (h2 : ∀ a : Fin 1000, x2 (ix2 a (0 : Fin 1)) = Bs (ix1 a)) (a : Fin 1000) :
    k0_pay1 (F := Ideal) x1 x0 x2 (ix2 a q) = Policy.probsRecip X Wt Bs (ix2 j a) := by
  refine (Body.payload_apply x1 x0 x2 a q).trans ?_
  show _ = Softmax.recip (Policy.logit X Wt Bs j) a
  refine congrArg (fun l => Softmax.recip l a) (funext fun a' => ?_)
  unfold Policy.logit
  rw [h2 a']
  refine congrArg (· + Bs (ix1 a')) (Finset.sum_congr rfl fun d _ => ?_)
  rw [h0 d, h1 d a', mul_comm]

/-- The array the region leaves: the row softmax, transposed. -/
def probsT (X : Policy.SX.Idx → EReal) (Wt : Policy.SW.Idx → EReal) (Bs : Policy.SB.Idx → EReal) : S1000x16384.Idx → EReal :=
  fun i => Policy.probsRecip X Wt Bs (ix2 (i 1) (i 0))

/-- WHAT POINT `t` WRITES BACK is block `t` of the transposed row softmax of the argument arrays. -/
theorem flushed_eq (c : Dev nD) (t : Fin cfg0.N) :
    (dats m 0 c).flushed 3 t = ((cfg0.win 3).blk t).view.read (Elt Ideal)
      (probsT (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S16x1000) hz, View.ld_unit_zero (S := S16x2048) hz, View.ld_unit_zero (S := S1000x1) hz]
  obtain ⟨-, -, -, -, -, -, e0, e1⟩ := index_facts t
  funext y
  obtain ⟨a, q, rfl⟩ : ∃ (a : Fin 1000) (q : Fin 2048), y = ix2 a q := ⟨y 0, y 1, eq_ix2 y⟩
  show k0_pay1 (F := Ideal) (iblk m c 1 t) (iblk m c 0 t) (iblk m c 2 t) (ix2 a q)
    = probsT (m ((c : Thread nD τ).loc main_arg0)) (m ((c : Thread nD τ).loc main_arg1)) (m ((c : Thread nD τ).loc main_arg2))
        (((cfg0.win 3).blk t).view.emb (ix2 a q))
  have e : ((cfg0.win 3).blk t).view.emb (ix2 a q) = ix2 a (rowOf t q) := by
    funext ax; apply Fin.ext
    match ax with
    | ⟨0, _⟩ => show win0_3.index t (0 : Fin 2) * 1000 + 1 * a.val = a.val; omega
    | ⟨1, _⟩ => show win0_3.index t (1 : Fin 2) * 2048 + 1 * q.val = t.val * 2048 + q.val; omega
  rw [e]
  exact entry _ _ _ (iblk m c 0 t) (iblk m c 1 t) (iblk m c 2 t) (rowOf t q) q (fun d => states_block m c t d q)
    (fun d a' => weights_block m c t d a') (fun a' => bias_block m c t a') a

/-! ## The blocks tile the array -/

/-- An index of the array is in point `t`'s block iff each coordinate is in the block's range on its axis. -/
theorem mem_blk (t : Fin cfg0.N) (i : S1000x16384.Idx) :
    i ∈ ((cfg0.win 3).blk t).view.set ↔ ∀ a : Fin 2, win0_3.index t a * S1000x2048.size a ≤ (i a).val
      ∧ (i a).val < win0_3.index t a * S1000x2048.size a + S1000x2048.size a := by
  show i ∈ ((View.whole main_v2).slice (win0_3.rect t)).set ↔ _
  rw [View.set_slice_whole, Rect.mem_set_unit]
  exact Iff.rfl

/-- Column `n` of the array lies in the block of point `n / 2048`. -/
theorem cover (i : S1000x16384.Idx) : ∃ t : Fin cfg0.N, (cfg0.win 3).flush t = true ∧ i ∈ ((cfg0.win 3).blk t).view.set := by
  have hi0 : (i 0).val < 1000 := (i 0).isLt
  have hi1 : (i 1).val < 16384 := (i 1).isLt
  have hN : cfg0.N = 8 := N_0
  refine ⟨⟨(i 1).val / 2048, by rw [hN]; omega⟩, flush0_3 _, ?_⟩
  rw [mem_blk]
  obtain ⟨-, -, -, -, -, -, e0, e1⟩ := index_facts ⟨(i 1).val / 2048, by rw [hN]; omega⟩
  intro ax
  match ax with
  | ⟨0, _⟩ =>
    show win0_3.index ⟨(i 1).val / 2048, _⟩ (0 : Fin 2) * 1000 ≤ (i 0).val ∧ (i 0).val < win0_3.index ⟨(i 1).val / 2048, _⟩ (0 : Fin 2) * 1000 + 1000
    rw [e0]; omega
  | ⟨1, _⟩ =>
    show win0_3.index ⟨(i 1).val / 2048, _⟩ (1 : Fin 2) * 2048 ≤ (i 1).val ∧ (i 1).val < win0_3.index ⟨(i 1).val / 2048, _⟩ (1 : Fin 2) * 2048 + 2048
    rw [e1]; show (i 1).val / 2048 * 2048 ≤ (i 1).val ∧ (i 1).val < (i 1).val / 2048 * 2048 + 2048; omega

/-- THE ARRAY the region leaves: the transposed row softmax of the argument arrays. -/
theorem final (c : Dev nD) : (dats m 0 c).arrAt 3 cfg0.N
    = probsT (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The transpose after the region, and the run -/

theorem result_eq (c : Dev nD) :
    Pipeline.afterTail₀ cfgs (dats m) 0 (V0 m) [hostOps1] c main_v3
      = Policy.probsRecip (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v2)
      = probsT (m ((c : Thread nD τ).loc main_arg0)) (m ((c : Thread nD τ).loc main_arg1)) (m ((c : Thread nD τ).loc main_arg2)) :=
    (Pipeline.withArrays_arr spec0 launch0.win.arr_inj c _ _ 3).trans (final m c)
  rw [hA]
  funext i
  obtain ⟨j, a, rfl⟩ : ∃ (j : Fin 16384) (a : Fin 1000), i = ix2 j a := ⟨i 0, i 1, eq_ix2 i⟩
  exact transpose_ix2_apply _ _ j a

/-- THE KERNEL PROGRAM'S RUN: every weakly fair execution terminates with the result array at the row softmax of the
    argument arrays (each weight times the reciprocal of its row's total) and the arguments unchanged. -/
theorem run : θ_run defs (onTc (τ := τ) (main (F := Ideal))) ⟨m, fun _ => 0, ρ⟩ fun r => ∀ c : Dev nD,
      r.2.mem ((c.tc : Thread nD τ).loc main_v3)
        = Policy.probsRecip (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Policy.Kernel

end
-- ==== Proof.FiniteInputs.lean ====
/-
  The precondition says every entry of the three argument arrays is a real number.

  The printed predicate is the conjunction of three `all`-reductions, one per array, of the comparison `|y| < +∞` at every
  entry `y`.  On the extended reals `|y| = max y (−y)` is `+∞` at both infinities, so the comparison holds exactly at the
  reals.
-/
import proofs.«137008_g19791209300550_cont_8to1_1714_20_alg».proof.Pre_finite_inputs
import proofs.«137008_g19791209300550_cont_8to1_1714_20_alg».proof.Proof.Gen.Pre_finite_inputs
import Idealize.ShloMosaic.Lib.ReduceAll
import Idealize.ShloMosaic.Lib.ValueIdx
import Idealize.ShloMosaic.PureOps.Ideal.Laws

noncomputable section

namespace Cert.Policy.Finite

open Cert.Pre_finite_inputs Cert.Pre_finite_inputs.Gen
open Idealize.ShloMosaic Idealize.ShloMosaic.ValueIdx

/-- The scalar shape has one index. -/
instance : Subsingleton S_.Idx := ⟨fun _ _ => funext fun d => d.elim0⟩

/-- An extended real whose absolute value is below `+∞` is a real number. -/
theorem real_of_abs_lt (y : EReal) (h : Ideal.cmp .olt (max y (-y)) (Ideal.ofBits .f32 0x7F800000#32) = 1#1) :
    ∃ r : ℝ, y = (r : EReal) := by
  have htop : Ideal.ofBits .f32 0x7F800000#32 = ⊤ := by simp [Ideal.ofBits, Ideal.ieee]
  rw [htop] at h
  induction y using EReal.rec with
  | bot => simp [Ideal.cmp] at h
  | top => simp [Ideal.cmp] at h
  | coe r => exact ⟨r, rfl⟩

/-- Under the precondition every entry of each of the three arrays is a real number. -/
theorem reals_of_pre (x : FVec Ideal S16384x16 .f32) (w : FVec Ideal S16x1000 .f32) (b : FVec Ideal S1000 .f32)
    (h : Cert.Pre_finite_inputs.fn (F := Ideal) x w b = fun _ => 1#1) :
    (∀ i, ∃ r : ℝ, x i = (r : EReal)) ∧ (∀ i, ∃ r : ℝ, w i = (r : EReal)) ∧ (∀ i, ∃ r : ℝ, b i = (r : EReal)) := by
  have h0 := congrFun h ix0
  dsimp only [Cert.Pre_finite_inputs.fn] at h0
  obtain ⟨h01, hb⟩ := IntOp.andi_eq_one.1 h0
  obtain ⟨hx, hw⟩ := IntOp.andi_eq_one.1 h01
  refine ⟨fun i => ?_, fun i => ?_, fun i => ?_⟩
  · exact real_of_abs_lt (x i) (Host.reduce_andi_all _ _ _ _ ix0 hx i)
  · exact real_of_abs_lt (w i) (Host.reduce_andi_all _ _ _ _ ix0 hw i)
  · exact real_of_abs_lt (b i) (Host.reduce_andi_all _ _ _ _ ix0 hb i)

end Cert.Policy.Finite

end
-- ==== Proof.lean ====
/-
  The policy head `softmax (state · W + b)` over the rows: the kernel program against the reference, on the extended reals.

  Both programs compute, for state row `j` and action `a`, the logit `∑ d, state[j, d] · W[d, a] + b[a]`, the row's maximum from
  −∞, the exponentials of the logits less that maximum, and their sum.  The reference divides each exponential by the sum; the
  kernel — which works on the transposed arrays, eight column blocks of 2048 states each, and transposes back — multiplies each
  exponential by the reciprocal of the sum.  The two agree wherever the sum is not zero, and under the precondition (every entry
  of the three arrays a real number) the sum is at least `1`: the row's maximum is attained, so one exponential is `exp 0 = 1`,
  and the others are nonnegative.

  Modules: `LibSoftmax` (the two arrangements on a family of extended reals, and the law), `Logits` (the result as one function of
  the argument arrays), `RefSoftmax` (the reference computes the quotient arrangement), `BodySoftmax` (the kernel body's stored
  value at an index), `KernelArray` (the kernel program's result array), `FiniteInputs` (the precondition gives reals).
-/
import proofs.«137008_g19791209300550_cont_8to1_1714_20_alg».proof.Defs
import proofs.«137008_g19791209300550_cont_8to1_1714_20_alg».proof.Proof.Gen.Kernel
import proofs.«137008_g19791209300550_cont_8to1_1714_20_alg».proof.Proof.Gen.Kernel.Skeleton
import proofs.«137008_g19791209300550_cont_8to1_1714_20_alg».proof.Proof.Gen.Kernel.Launch
import proofs.«137008_g19791209300550_cont_8to1_1714_20_alg».proof.Proof.Gen.Kernel.Points
import proofs.«137008_g19791209300550_cont_8to1_1714_20_alg».proof.Proof.Gen.Kernel.Frame
import proofs.«137008_g19791209300550_cont_8to1_1714_20_alg».proof.Proof.Gen.KernelIdeal
import proofs.«137008_g19791209300550_cont_8to1_1714_20_alg».proof.Proof.Gen.KernelIdeal.Skeleton
import proofs.«137008_g19791209300550_cont_8to1_1714_20_alg».proof.Proof.Gen.KernelIdeal.Launch
import proofs.«137008_g19791209300550_cont_8to1_1714_20_alg».proof.Proof.Gen.KernelIdeal.Points
import proofs.«137008_g19791209300550_cont_8to1_1714_20_alg».proof.Proof.Gen.KernelIdeal.Frame
import proofs.«137008_g19791209300550_cont_8to1_1714_20_alg».proof.Proof.Gen.ReferenceIdeal
import proofs.«137008_g19791209300550_cont_8to1_1714_20_alg».proof.Proof.Gen.Pre_finite_inputs
import proofs.«137008_g19791209300550_cont_8to1_1714_20_alg».proof.Proof.Gen.ReferenceIdeal.Run
import proofs.«137008_g19791209300550_cont_8to1_1714_20_alg».proof.Proof.Gen.ReferenceIdeal.Read
import proofs.«137008_g19791209300550_cont_8to1_1714_20_alg».proof.Proof.Logits
import proofs.«137008_g19791209300550_cont_8to1_1714_20_alg».proof.Proof.RefSoftmax
import proofs.«137008_g19791209300550_cont_8to1_1714_20_alg».proof.Proof.KernelArray
import proofs.«137008_g19791209300550_cont_8to1_1714_20_alg».proof.Proof.FiniteInputs
import Idealize.ShloMosaic.Adequacy
import Idealize.ShloMosaic.Init

noncomputable section

namespace Cert.Proof

open Idealize.ShloMosaic Idealize.SL.Sem

/-- The three programs run and keep their arguments: the kernel programs by their frame runs, the reference by its run
    with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the row softmax in the quotient arrangement: the reference
    computes it; the kernel program computes the product-with-reciprocal arrangement, which is the same function on arrays of
    reals, as the precondition says the arguments are. -/
theorem algebraic : Cert.algebraic_KernelIdeal_ReferenceIdeal := by
  intro m ρ m' ρ' hpre hagree
  refine ⟨fun c => Cert.Policy.probs
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.Policy.Kernel.run m ρ)
    obtain ⟨hx, hw, hb⟩ := Cert.Policy.Finite.reals_of_pre _ _ _ (hpre c)
    exact Cert.Policy.probsRecip_eq_probs hx hw hb
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, Cert.Policy.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
